-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S1x128 .f32) (main_arg12 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S1x128 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S128x1 : Shape := ⟨2, ![128, 1]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 71
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S128x128, .f32⟩
  | .hbm, ⟨31, _⟩ => ⟨S128x128, .f32⟩
  | .hbm, ⟨32, _⟩ => ⟨S1x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S100000x128, .f32⟩
  | .hbm, ⟨68, _⟩ => ⟨S128x1, .f32⟩
  | .hbm, ⟨69, _⟩ => ⟨S1x1, .f32⟩
  | .hbm, ⟨70, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x1, .f32⟩
  | .local _ .vmem, ⟨30, _⟩ => ⟨S1x1, .f32⟩
  | .local _ .vmem, ⟨31, _⟩ => ⟨S5000x1, .f32⟩
  | .local _ .vmem, ⟨32, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S1x128_S128x1_1_0 : S1x128.Transposes [1, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S5000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x128, .f32⟩
  | .hbm, ⟨12, _⟩ => ⟨S1, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S128x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S128x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S128x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S128x1, .f32⟩
  | .hbm, ⟨90, _⟩ => ⟨S100000x1, .f32⟩
  | .hbm, ⟨91, _⟩ => ⟨S1x1, .f32⟩
  | .hbm, ⟨92, _⟩ => ⟨S100000x1, .f32⟩
  | .hbm, ⟨93, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_cst : Ref sig .tc := ⟨.hbm, 38, rfl⟩
abbrev main_call0_v0 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_cst : Ref sig .tc := ⟨.hbm, 62, rfl⟩
abbrev main_call1_v0 : Ref sig .tc := ⟨.hbm, 63, rfl⟩
abbrev main_v41 : Ref sig .tc := ⟨.hbm, 64, rfl⟩
abbrev main_c_4 : Ref sig .tc := ⟨.hbm, 65, rfl⟩
abbrev main_v42 : Ref sig .tc := ⟨.hbm, 66, rfl⟩
abbrev main_v43 : Ref sig .tc := ⟨.hbm, 67, rfl⟩
abbrev main_c_5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call2_cst : Ref sig .tc := ⟨.hbm, 86, rfl⟩
abbrev main_call2_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run with its result named.

  @main is eight segments: four stretches of host operations and four kernel regions. The buffer contents at each
  segment boundary are a fold from the launch memory: a host stretch applies its operations, a region leaves its output
  array at what its grid points' write-backs leave and every other buffer as it found it. Every weakly fair execution
  terminates with each unscoped buffer at the last boundary's contents; here that is read at the result buffer as well
  as at the arguments (which no segment writes).
-/
import proofs.«152363_j31954556683004_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.RunValue

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«152363_j31954556683004_1_alg».proof.Proof.LibPlainDot
import proofs.«152363_j31954556683004_1_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.LibBiasRow.lean ====
/-
  GENERAL LEMMAS: an affine layer whose bias is a one-axis array, read one output at a time on the extended reals.

  The vector program keeps a bias as an `[N]` array, recasts it as a `[1, N]` row and broadcasts the row down the rows
  of the product. Recasting changes no entry: the row at `(0, n)` is the array at `n`. So the layer at entry `(p, c)` is
  `∑ k, x k · w k c + b c` with `x` row `p` of the left matrix, as for a `[1, N]` bias (`Dense.matmul_bias_apply`).
  Also here: the positive part against a splat zero at an entry, and the fact that an affine map and a joined row depend
  on their rows only through the rows' entries (`lin_congr`, `cat_congr`), which lets a layer be read from the inside out.
-/
import proofs.«152363_j31954556683004_1_alg».proof.Proof.LibDense

noncomputable section

namespace Idealize.ShloMosaic.Dense

open Idealize.ShloMosaic Idealize.ShloMosaic.ValueIdx

variable {M K N : Nat}

/-- An `[N]` array recast as a `[1, N]` row reads, at `(0, n)`, the array at `n`. -/
theorem shapeCast_row_apply {α : Type} (b : (⟨1, ![N]⟩ : Shape).Idx → α)
    (h : (⟨1, ![N]⟩ : Shape).ShapeCasts ⟨2, ![1, N]⟩) (n : Fin N) :
    shapeCast ⟨2, ![1, N]⟩ b h (ix2 (0 : Fin 1) n) = b (ix1 n) := by
  refine (shapeCast_addUnit_apply ![N] b h (ix2 (0 : Fin 1) n)).trans (congrArg b ?_)
  funext a
  match a with
  | ⟨0, _⟩ => rfl

/-- A product into the zero accumulator plus an `[N]` bias recast as a row and broadcast down the rows. -/
theorem matmul_arrBias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    addf (matmul D none l r (constant (F := Ideal) ⟨2, ![M, N]⟩ .f32 0x00000000#32))
        (broadcastTo ⟨2, ![M, N]⟩ (shapeCast ⟨2, ![1, N]⟩ b hc) hb) (ix2 p c)
      = lin (fun k => l (ix2 p k)) (fun k n => r (ix2 k n)) (fun n => b (ix1 n)) c := by
  refine (matmul_bias_apply D hD l r (shapeCast ⟨2, ![1, N]⟩ b hc) hb p c).trans ?_
  exact congrArg (fun f => lin (fun k => l (ix2 p k)) (fun k n => r (ix2 k n)) f c)
    (funext fun n => shapeCast_row_apply b hc n)

/-- The same followed by the positive part against a splat zero. -/
theorem matmul_arrBias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    maximumf (addf (matmul D none l r (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p c)
      = relu (lin (fun k => l (ix2 p k)) (fun k n => r (ix2 k n)) (fun n => b (ix1 n)) c) := by
  refine (matmul_bias_relu_apply D hD l r (shapeCast ⟨2, ![1, N]⟩ b hc) hb p c).trans ?_
  exact congrArg (fun f => relu (lin (fun k => l (ix2 p k)) (fun k n => r (ix2 k n)) f c))
    (funext fun n => shapeCast_row_apply b hc n)

/-- The positive part against a splat zero, at an entry. -/
theorem maximumf_zero_apply {s : Shape} (v : FVec Ideal s .f32) (i : s.Idx) :
    maximumf v (broadcast s (Scalar.ofBits (F := Ideal) .f32 0x00000000#32)) i = relu (v i) := rfl

/-- Two rows joined end to end depend on the rows only through their entries. -/
theorem cat_congr {a b c : Nat} (hc : c = a + b) {u u' : Fin a → EReal} {v v' : Fin b → EReal}
    (hu : ∀ q, u q = u' q) (hv : ∀ q, v q = v' q) (j : Fin c) : cat hc u v j = cat hc u' v' j :=
  congrArg₂ (fun f g => cat hc f g j) (funext hu) (funext hv)

/-- The affine map depends on its row only through the row's entries. -/
theorem lin_congr {x y : Fin K → EReal} (h : ∀ k, x k = y k) (w : Fin K → Fin N → EReal) (b : Fin N → EReal) (c : Fin N) :
    lin x w b c = lin y w b c :=
  congrArg (fun z => lin z w b c) (funext h)

end Idealize.ShloMosaic.Dense

end
-- ==== Proof.LibGraphLayer.lean ====
/-
  GENERAL LEMMAS: one graph-convolution layer and a linear readout, read one output entry at a time on the extended reals.

  A layer takes the aggregated neighbour features `a`, the node features `h` (both M×K), two K×N weight matrices
  `w`, `w'` and a bias of length N. Entry (p, c) of its result is

      max ( (∑ k, a (p, k) · w (k, c) + b c) + ∑ k, h (p, k) · w' (k, c) , 0 )

  so row p of the result depends on row p of `a` and of `h` only (`layerAt`). The readout is the affine map alone,
  `∑ k, h (p, k) · w (k, c) + b c` (`Dense.lin`). The lemmas read the two spellings of each at an entry: the vector
  program's (products into the zero accumulator, operands passed through a change of float format, which is the identity
  on the extended reals; the bias a [1, N] row broadcast down the rows; the positive part against a splat zero) and the
  host's (`dot_general`s, the bias an [N] array broadcast twice, the positive part against a broadcast scalar zero).
  No law beyond reading each operation at an index is used: both spellings add the same three terms in the same order.
-/
import proofs.«152363_j31954556683004_1_alg».proof.Proof.LibBiasRow

noncomputable section

open scoped BigOperators

namespace Idealize.ShloMosaic.GraphLayer

open Idealize.ShloMosaic Idealize.ShloMosaic.ValueIdx Idealize.ShloMosaic.Dense

variable {M K N : Nat}

/-- One output of a layer: the affine map of the aggregated row, plus the node's own row against the second weight
    matrix, then the positive part. -/
def layerAt (ar hr : Fin K → EReal) (w w' : Fin K → Fin N → EReal) (b : Fin N → EReal) (c : Fin N) : EReal :=
  relu (lin ar w b c + ∑ k : Fin K, hr k * w' k c)

/-- The layer as one function of whole arrays, index by index. -/
def layerG (a h : (⟨2, ![M, K]⟩ : Shape).Idx → EReal) (w w' : (⟨2, ![K, N]⟩ : Shape).Idx → EReal) (b : Fin N → EReal) :
    (⟨2, ![M, N]⟩ : Shape).Idx → EReal :=
  fun i => layerAt (fun k => a (ix2 (i 0) k)) (fun k => h (ix2 (i 0) k)) (fun k n => w (ix2 k n)) (fun k n => w' (ix2 k n)) b (i 1)

/-- The readout as one function of whole arrays, index by index. -/
def readoutG (h : (⟨2, ![M, K]⟩ : Shape).Idx → EReal) (w : (⟨2, ![K, N]⟩ : Shape).Idx → EReal) (b : Fin N → EReal) :
    (⟨2, ![M, N]⟩ : Shape).Idx → EReal :=
  fun i => lin (fun k => h (ix2 (i 0) k)) (fun k n => w (ix2 k n)) b (i 1)

theorem layerG_apply (a h : (⟨2, ![M, K]⟩ : Shape).Idx → EReal) (w w' : (⟨2, ![K, N]⟩ : Shape).Idx → EReal) (b : Fin N → EReal)
    (p : Fin M) (c : Fin N) :
    layerG a h w w' b (ix2 p c)
      = layerAt (fun k => a (ix2 p k)) (fun k => h (ix2 p k)) (fun k n => w (ix2 k n)) (fun k n => w' (ix2 k n)) b c := rfl

theorem readoutG_apply (h : (⟨2, ![M, K]⟩ : Shape).Idx → EReal) (w : (⟨2, ![K, N]⟩ : Shape).Idx → EReal) (b : Fin N → EReal)
    (p : Fin M) (c : Fin N) :
    readoutG h w b (ix2 p c) = lin (fun k => h (ix2 p k)) (fun k n => w (ix2 k n)) b c := rfl

/-- A layer's output depends on its rows and weights only through their entries. -/
theorem layerAt_congr {ar ar' hr hr' : Fin K → EReal} {w w₂ w' w₂' : Fin K → Fin N → EReal} {b b' : Fin N → EReal}
    (h1 : ∀ k, ar k = ar' k) (h2 : ∀ k, hr k = hr' k) (h3 : ∀ k n, w k n = w₂ k n) (h4 : ∀ k n, w' k n = w₂' k n)
    (h5 : ∀ n, b n = b' n) (c : Fin N) : layerAt ar hr w w' b c = layerAt ar' hr' w₂ w₂' b' c := by
  have e1 : ar = ar' := funext h1
  have e2 : hr = hr' := funext h2
  have e3 : w = w₂ := funext fun k => funext (h3 k)
  have e4 : w' = w₂' := funext fun k => funext (h4 k)
  have e5 : b = b' := funext h5
  rw [e1, e2, e3, e4, e5]

/-- The affine map depends on its row, weights and bias only through their entries. -/
theorem lin_congr' {x y : Fin K → EReal} {w w₂ : Fin K → Fin N → EReal} {b b' : Fin N → EReal}
    (h1 : ∀ k, x k = y k) (h3 : ∀ k n, w k n = w₂ k n) (h5 : ∀ n, b n = b' n) (c : Fin N) :
    lin x w b c = lin y w₂ b' c := by
  have e1 : x = y := funext h1
  have e3 : w = w₂ := funext fun k => funext (h3 k)
  have e5 : b = b' := funext h5
  rw [e1, e3, e5]

/-! ## The vector program's spelling -/

/-- Two products into the zero accumulator, the bias row added to the first, the second added on, the positive part. -/
theorem vecLayer_apply (D : DotDims ⟨2, ![M, K]⟩ ⟨2, ![K, N]⟩ ⟨2, ![M, N]⟩) (hD : D = DotDims.plain M K N)
    (x0 x1 : FVec Ideal ⟨2, ![M, K]⟩ .f32) (w w' : FVec Ideal ⟨2, ![K, N]⟩ .f32) (b : FVec Ideal ⟨2, ![1, N]⟩ .f32)
    (hb : (⟨2, ![1, N]⟩ : Shape).Broadcasts ⟨2, ![M, N]⟩) (hlt : FTy.bf16.bits < FTy.f32.bits) (p : Fin M) (c : Fin N) :
    maximumf (addf (addf (matmul D none (truncf .bf16 x0 hlt) (truncf .bf16 w hlt) (constant (F := Ideal) ⟨2, ![M, N]⟩ .f32 0x00000000#32))
            (broadcastTo ⟨2, ![M, N]⟩ b hb))
          (matmul D none (truncf .bf16 x1 hlt) (truncf .bf16 w' hlt) (constant (F := Ideal) ⟨2, ![M, N]⟩ .f32 0x00000000#32)))
        (broadcast ⟨2, ![M, N]⟩ (Scalar.ofBits (F := Ideal) .f32 0x00000000#32)) (ix2 p c)
      = layerAt (fun k => x0 (ix2 p k)) (fun k => x1 (ix2 p k)) (fun k n => w (ix2 k n)) (fun k n => w' (ix2 k n))
          (fun n => b (ix2 (0 : Fin 1) n)) c := by
  rw [maximumf_zero_apply, addf_apply,
    matmul_bias_apply D hD (truncf .bf16 x0 hlt) (truncf .bf16 w hlt) b hb p c,
    PlainDot.matmul_zero_apply D hD none (truncf .bf16 x1 hlt) (truncf .bf16 w' hlt) (ix2 p c)]
  rfl

/-- One product into the zero accumulator plus the bias row. -/
theorem vecReadout_apply (D : DotDims ⟨2, ![M, K]⟩ ⟨2, ![K, N]⟩ ⟨2, ![M, N]⟩) (hD : D = DotDims.plain M K N)
    (x0 : FVec Ideal ⟨2, ![M, K]⟩ .f32) (w : FVec Ideal ⟨2, ![K, N]⟩ .f32) (b : FVec Ideal ⟨2, ![1, N]⟩ .f32)
    (hb : (⟨2, ![1, N]⟩ : Shape).Broadcasts ⟨2, ![M, N]⟩) (hlt : FTy.bf16.bits < FTy.f32.bits) (p : Fin M) (c : Fin N) :
    addf (matmul D none (truncf .bf16 x0 hlt) (truncf .bf16 w hlt) (constant (F := Ideal) ⟨2, ![M, N]⟩ .f32 0x00000000#32))
        (broadcastTo ⟨2, ![M, N]⟩ b hb) (ix2 p c)
      = lin (fun k => x0 (ix2 p k)) (fun k n => w (ix2 k n)) (fun n => b (ix2 (0 : Fin 1) n)) c :=
  matmul_bias_apply D hD (truncf .bf16 x0 hlt) (truncf .bf16 w hlt) b hb p c

/-! ## The host's spelling -/

/-- Two `dot_general`s, the bias broadcast over the rows added to the first, the second added on, the positive part. -/
theorem hostLayer_apply (D : DotDims ⟨2, ![M, K]⟩ ⟨2, ![K, N]⟩ ⟨2, ![M, N]⟩) (hD : D = DotDims.plain M K N)
    (a h : FVec Ideal ⟨2, ![M, K]⟩ .f32) (w w' : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (addf (Host.dotGeneral D none a w) (broadcastInDim ⟨2, ![M, N]⟩ ![0, 1] h2 (broadcastInDim ⟨2, ![1, N]⟩ ![1] h1 b)))
          (Host.dotGeneral D none h w'))
        (broadcastInDim ⟨2, ![M, N]⟩ ![] h0 (constant (F := Ideal) ⟨0, ![]⟩ .f32 0x00000000#32)) (ix2 p c)
      = layerAt (fun k => a (ix2 p k)) (fun k => h (ix2 p k)) (fun k n => w (ix2 k n)) (fun k n => w' (ix2 k n))
          (fun n => b (ix1 n)) c := by
  rw [maximumf_apply, addf_apply, hostDot_bias_apply D hD a w b h1 h2 p c,
    PlainDot.hostDot_apply D hD none h w' (ix2 p c),
    broadcastInDim_apply _ h0 _ (ix2 p c) ix0 (fun a => a.elim0)]
  rfl

end Idealize.ShloMosaic.GraphLayer

end
-- ==== Proof.Region0.lean ====
/-
  Region 0 (the first layer's call): what its output array holds when the region is left, as one function of the
  five arrays the region finds, for ANY contents `V` of the buffers at the region's entry.

  The grid has 20 points. At point t the body sees rows 5000·t … 5000·t + 4999 of the aggregated features and of the
  node features, the two weight matrices and the bias row whole, and writes rows 5000·t … 5000·t + 4999 of the result:
  entry (p, q) of the written block is the layer's output for row 5000·t + p (`GraphLayer.layerAt`), which reads row p
  of the two row blocks only. The 20 blocks tile the result, so the array ends at the layer's whole-array function.
-/
import proofs.«152363_j31954556683004_1_alg».proof.Proof.Gen.KernelIdeal.Frame
import proofs.«152363_j31954556683004_1_alg».proof.Proof.LibGraphLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx Idealize.ShloMosaic.GraphLayer

variable (V : (c : Dev nD) → (b : Ref sig .tc) → Buf (Elt Ideal) ((c : Thread nD τ).loc b))

theorem hz : (![0, 0] : Fin 2 → Nat) = fun _ => 0 := funext fun a => by fin_cases a <;> rfl

/-- The layer's whole-array function of the region's five input arrays, in window order: aggregated features, node
    features, first weight matrix, bias row, second weight matrix. -/
def G (a h : S100000x128.Idx → EReal) (w : S128x128.Idx → EReal) (b : S1x128.Idx → EReal) (w' : S128x128.Idx → EReal) :
    S100000x128.Idx → EReal :=
  layerG a h w w' (fun n => b (ix2 (0 : Fin 1) n))

/-- The body's stored value at entry (p, q): the layer's output for row p of the two row blocks. -/
theorem pay_apply (x0 x1 : Vec Ideal S5000x128 .f32) (x2 x4 : Vec Ideal S128x128 .f32) (x3 : Vec Ideal S1x128 .f32)
    (p : Fin 5000) (q : Fin 128) :
    k0_pay1 x0 x1 x2 x4 x3 (ix2 p q)
      = layerAt (fun k => x0 (ix2 p k)) (fun k => x1 (ix2 p k)) (fun k n => x2 (ix2 k n)) (fun k n => x4 (ix2 k n))
          (fun n => x3 (ix2 (0 : Fin 1) n)) q := by
  unfold k0_pay1
  simp only [shapeCast_self]
  exact vecLayer_apply dot_S5000x128_S128x128_S5000x128_1_0_0_1_n_n rfl x0 x1 x2 x4 x3 _ _ p q

/-- One stored entry against the whole-array function: when the blocks' rows are the arrays' rows. -/
theorem point_eq (x0 x1 : Vec Ideal S5000x128 .f32) (x2 x4 : Vec Ideal S128x128 .f32) (x3 : Vec Ideal S1x128 .f32)
    (a h : S100000x128.Idx → EReal) (w : S128x128.Idx → EReal) (b : S1x128.Idx → EReal) (w' : S128x128.Idx → EReal)
    (y : S5000x128.Idx) (i : S100000x128.Idx)
    (h0 : ∀ k : Fin 128, x0 (ix2 (y 0) k) = a (ix2 (i 0) k))
    (h1 : ∀ k : Fin 128, x1 (ix2 (y 0) k) = h (ix2 (i 0) k))
    (h2 : ∀ (k : Fin 128) (n : Fin 128), x2 (ix2 k n) = w (ix2 k n))
    (h4 : ∀ (k : Fin 128) (n : Fin 128), x4 (ix2 k n) = w' (ix2 k n))
    (h3 : ∀ n : Fin 128, x3 (ix2 (0 : Fin 1) n) = b (ix2 (0 : Fin 1) n))
    (hi1 : (i 1).val = (y 1).val) :
    k0_pay1 x0 x1 x2 x4 x3 y = G a h w b w' i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hi1
  subst hs
  rw [pay_apply]
  unfold G
  rw [layerG_apply]
  exact layerAt_congr h0 h1 h2 h4 h3 s

/-- The printed index maps over the grid: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 5000·t … of the aggregated features. -/
theorem iblk_0 (c : Dev nD) (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_v13 : S100000x128.Idx → EReal) k := by
  obtain ⟨e00, e01, -⟩ := idx_facts t
  unfold iblk0
  rw [View.read_apply]
  show V c main_v13 _ = V c main_v13 _
  congr 1
  funext a
  apply Fin.ext
  match a with
  | ⟨0, _⟩ => show win0_0.index t 0 * 5000 + 1 * (x 0).val = (k 0).val; rw [e00, hk0]; omega
  | ⟨1, _⟩ => show win0_0.index t 1 * 128 + 1 * (x 1).val = (k 1).val; rw [e01, hk1]; omega

/-- Window 1's block at point t is rows 5000·t … of the node features. -/
theorem iblk_1 (c : Dev nD) (t : Fin cfg0.N) (x : S5000x128.Idx) (k : S100000x128.Idx)
    (hk0 : (k 0).val = 5000 * t.val + (x 0).val) (hk1 : (k 1).val = (x 1).val) :
    (iblk0 V c 1 t : Vec Ideal S5000x128 .f32) x = (V c main_arg0 : S100000x128.Idx → EReal) k := by
  obtain ⟨-, -, e10, e11, -⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e10, hk0]; omega
  | ⟨1, _⟩ => show win0_1.index t 1 * 128 + 1 * (x 1).val = (k 1).val; rw [e11, hk1]; omega

/-- Window 2's block at every point is the first weight matrix whole. -/
theorem iblk_2 (c : Dev nD) (t : Fin cfg0.N) (x : S128x128.Idx) :
    (iblk0 V c 2 t : Vec Ideal S128x128 .f32) x = (V c main_v14 : S128x128.Idx → EReal) x := by
  obtain ⟨-, -, -, -, e20, e21, -⟩ := idx_facts t
  unfold iblk0
  rw [View.read_apply]
  show V c main_v14 _ = V c main_v14 _
  congr 1
  funext a
  apply Fin.ext
  match a with
  | ⟨0, _⟩ => show win0_2.index t 0 * 128 + 1 * (x 0).val = (x 0).val; rw [e20]; omega
  | ⟨1, _⟩ => show win0_2.index t 1 * 128 + 1 * (x 1).val = (x 1).val; rw [e21]; omega

/-- Window 3's block at every point is the bias row whole. -/
theorem iblk_3 (c : Dev nD) (t : Fin cfg0.N) (x : S1x128.Idx) :
    (iblk0 V c 3 t : Vec Ideal S1x128 .f32) x = (V c main_v16 : S1x128.Idx → EReal) x := by
  obtain ⟨-, -, -, -, -, -, e30, e31, -⟩ := idx_facts t
  unfold iblk0
  rw [View.read_apply]
  show V c main_v16 _ = V c main_v16 _
  congr 1
  funext a
  apply Fin.ext
  match a with
  | ⟨0, _⟩ => show win0_3.index t 0 * 1 + 1 * (x 0).val = (x 0).val; rw [e30]; omega
  | ⟨1, _⟩ => show win0_3.index t 1 * 128 + 1 * (x 1).val = (x 1).val; rw [e31]; omega

/-- Window 4's block at every point is the second weight matrix whole. -/
theorem iblk_4 (c : Dev nD) (t : Fin cfg0.N) (x : S128x128.Idx) :
    (iblk0 V c 4 t : Vec Ideal S128x128 .f32) x = (V c main_v15 : S128x128.Idx → EReal) x := by
  obtain ⟨-, -, -, -, -, -, -, -, e40, e41, -⟩ := idx_facts t
  unfold iblk0
  rw [View.read_apply]
  show V c main_v15 _ = V c main_v15 _
  congr 1
  funext a
  apply Fin.ext
  match a with
  | ⟨0, _⟩ => show win0_4.index t 0 * 128 + 1 * (x 0).val = (x 0).val; rw [e40]; omega
  | ⟨1, _⟩ => show win0_4.index t 1 * 128 + 1 * (x 1).val = (x 1).val; rw [e41]; omega

/-- What point t writes back is block t of the layer's whole-array function of the arrays the region finds. -/
theorem flushed_eq (c : Dev nD) (t : Fin cfg0.N) :
    (dat0 V c).flushed 5 t = ((cfg0.win 5).blk t).view.read (Elt Ideal)
      (G (V c main_v13) (V c main_arg0) (V c main_v14) (V c main_v16) (V c main_v15)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  funext j
  show k0_pay1 (iblk0 V c 0 t) (iblk0 V c 1 t) (iblk0 V c 2 t) (iblk0 V c 4 t) (iblk0 V c 3 t) j
    = G (V c main_v13) (V c main_arg0) (V c main_v14) (V c main_v16) (V c main_v15) (((cfg0.win 5).blk t).view.emb j)
  have r0 : ((((cfg0.win 5).blk t).view.emb j) 0).val = 5000 * t.val + (j 0).val := by
    show win0_5.index t 0 * 5000 + 1 * (j 0).val = _; rw [e50]; omega
  have r1 : ((((cfg0.win 5).blk t).view.emb j) 1).val = (j 1).val := by
    show win0_5.index t 1 * 128 + 1 * (j 1).val = _; rw [e51]; omega
  exact point_eq (iblk0 V c 0 t) (iblk0 V c 1 t) (iblk0 V c 2 t) (iblk0 V c 4 t) (iblk0 V c 3 t)
    (V c main_v13) (V c main_arg0) (V c main_v14) (V c main_v16) (V c main_v15) j (((cfg0.win 5).blk t).view.emb j)
    (fun k => iblk_0 V c t _ _ r0 rfl) (fun k => iblk_1 V c t _ _ r0 rfl)
    (fun k n => iblk_2 V c t _) (fun k n => iblk_4 V c t _) (fun n => iblk_3 V c t _) r1

/-- An index of the result is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v17).slice (win0_5.rect t)).set ↔ _
  rw [View.set_slice_whole, Rect.mem_set_unit]
  exact Iff.rfl

/-- The 20 row blocks tile the result: row r is in the block of point r / 5000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := N_0
  have ht : (i 0).val / 5000 < cfg0.N := by show _ < grid0.N; rw [hN]; omega
  refine ⟨⟨(i 0).val / 5000, ht⟩, flush0_5 _, ?_⟩
  rw [mem_blk]
  obtain ⟨-, -, -, -, -, -, -, -, -, -, e50, e51⟩ := idx_facts ⟨(i 0).val / 5000, ht⟩
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- The region's output array when the region is left. -/
theorem final (c : Dev nD) :
    (dat0 V c).arrAt 5 cfg0.N = G (V c main_v13) (V c main_arg0) (V c main_v14) (V c main_v16) (V c main_v15) :=
  (dat0 V c).arrAt_eq_of_cover 5 _ (fun t _ => flushed_eq V c t) (cover)

end Cert.KernelIdeal.Region0

end
-- ==== Proof.Region1.lean ====
/-
  Region 1 (the second layer's call): what its output array holds when the region is left, as one function of the
  five arrays the region finds, for ANY contents `V` of the buffers at the region's entry.

  The grid has 20 points. At point t the body sees rows 5000·t … 5000·t + 4999 of the aggregated features and of the
  node features, the two weight matrices and the bias row whole, and writes rows 5000·t … 5000·t + 4999 of the result:
  entry (p, q) of the written block is the layer's output for row 5000·t + p (`GraphLayer.layerAt`), which reads row p
  of the two row blocks only. The 20 blocks tile the result, so the array ends at the layer's whole-array function.
-/
import proofs.«152363_j31954556683004_1_alg».proof.Proof.Gen.KernelIdeal.Frame
import proofs.«152363_j31954556683004_1_alg».proof.Proof.LibGraphLayer
import proofs.«152363_j31954556683004_1_alg».proof.Proof.Region0
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Idealize.ShloMosaic.GraphLayer
open Cert.KernelIdeal.Region0 (G)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the layer's output for row p of the two row blocks. -/
theorem pay_apply (x0 x1 : Vec Ideal S5000x128 .f32) (x2 x4 : Vec Ideal S128x128 .f32) (x3 : Vec Ideal S1x128 .f32)
    (p : Fin 5000) (q : Fin 128) :
    k1_pay1 x0 x1 x2 x4 x3 (ix2 p q)
      = layerAt (fun k => x0 (ix2 p k)) (fun k => x1 (ix2 p k)) (fun k n => x2 (ix2 k n)) (fun k n => x4 (ix2 k n))
          (fun n => x3 (ix2 (0 : Fin 1) n)) q := by
  unfold k1_pay1
  simp only [shapeCast_self]
  exact vecLayer_apply dot_S5000x128_S128x128_S5000x128_1_0_0_1_n_n rfl x0 x1 x2 x4 x3 _ _ p q

/-- One stored entry against the whole-array function: when the blocks' rows are the arrays' rows. -/
theorem point_eq (x0 x1 : Vec Ideal S5000x128 .f32) (x2 x4 : Vec Ideal S128x128 .f32) (x3 : Vec Ideal S1x128 .f32)
    (a h : S100000x128.Idx → EReal) (w : S128x128.Idx → EReal) (b : S1x128.Idx → EReal) (w' : S128x128.Idx → EReal)
    (y : S5000x128.Idx) (i : S100000x128.Idx)
    (h0 : ∀ k : Fin 128, x0 (ix2 (y 0) k) = a (ix2 (i 0) k))
    (h1 : ∀ k : Fin 128, x1 (ix2 (y 0) k) = h (ix2 (i 0) k))
    (h2 : ∀ (k : Fin 128) (n : Fin 128), x2 (ix2 k n) = w (ix2 k n))
    (h4 : ∀ (k : Fin 128) (n : Fin 128), x4 (ix2 k n) = w' (ix2 k n))
    (h3 : ∀ n : Fin 128, x3 (ix2 (0 : Fin 1) n) = b (ix2 (0 : Fin 1) n))
    (hi1 : (i 1).val = (y 1).val) :
    k1_pay1 x0 x1 x2 x4 x3 y = G a h w b w' i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hi1
  subst hs
  rw [pay_apply]
  unfold Region0.G
  rw [layerG_apply]
  exact layerAt_congr h0 h1 h2 h4 h3 s

/-- The printed index maps over the grid: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000·t … of the aggregated features. -/
theorem iblk_0 (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v27 : S100000x128.Idx → EReal) k := by
  obtain ⟨e00, e01, -⟩ := idx_facts t
  unfold iblk1
  rw [View.read_apply]
  show V c main_v27 _ = V c main_v27 _
  congr 1
  funext a
  apply Fin.ext
  match a with
  | ⟨0, _⟩ => show win1_0.index t 0 * 5000 + 1 * (x 0).val = (k 0).val; rw [e00, hk0]; omega
  | ⟨1, _⟩ => show win1_0.index t 1 * 128 + 1 * (x 1).val = (k 1).val; rw [e01, hk1]; omega

/-- Window 1's block at point t is rows 5000·t … of the node features. -/
theorem iblk_1 (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .f32) x = (V c main_v17 : S100000x128.Idx → EReal) k := by
  obtain ⟨-, -, e10, e11, -⟩ := idx_facts t
  unfold iblk1
  rw [View.read_apply]
  show V c main_v17 _ = V c main_v17 _
  congr 1
  funext a
  apply Fin.ext
  match a with
  | ⟨0, _⟩ => show win1_1.index t 0 * 5000 + 1 * (x 0).val = (k 0).val; rw [e10, hk0]; omega
  | ⟨1, _⟩ => show win1_1.index t 1 * 128 + 1 * (x 1).val = (k 1).val; rw [e11, hk1]; omega

/-- Window 2's block at every point is the first weight matrix whole. -/
theorem iblk_2 (c : Dev nD) (t : Fin cfg1.N) (x : S128x128.Idx) :
    (iblk1 V c 2 t : Vec Ideal S128x128 .f32) x = (V c main_v28 : S128x128.Idx → EReal) x := by
  obtain ⟨-, -, -, -, e20, e21, -⟩ := idx_facts t
  unfold iblk1
  rw [View.read_apply]
  show V c main_v28 _ = V c main_v28 _
  congr 1
  funext a
  apply Fin.ext
  match a with
  | ⟨0, _⟩ => show win1_2.index t 0 * 128 + 1 * (x 0).val = (x 0).val; rw [e20]; omega
  | ⟨1, _⟩ => show win1_2.index t 1 * 128 + 1 * (x 1).val = (x 1).val; rw [e21]; omega

/-- Window 3's block at every point is the bias row whole. -/
theorem iblk_3 (c : Dev nD) (t : Fin cfg1.N) (x : S1x128.Idx) :
    (iblk1 V c 3 t : Vec Ideal S1x128 .f32) x = (V c main_v30 : S1x128.Idx → EReal) x := by
  obtain ⟨-, -, -, -, -, -, e30, e31, -⟩ := idx_facts t
  unfold iblk1
  rw [View.read_apply]
  show V c main_v30 _ = V c main_v30 _
  congr 1
  funext a
  apply Fin.ext
  match a with
  | ⟨0, _⟩ => show win1_3.index t 0 * 1 + 1 * (x 0).val = (x 0).val; rw [e30]; omega
  | ⟨1, _⟩ => show win1_3.index t 1 * 128 + 1 * (x 1).val = (x 1).val; rw [e31]; omega

/-- Window 4's block at every point is the second weight matrix whole. -/
theorem iblk_4 (c : Dev nD) (t : Fin cfg1.N) (x : S128x128.Idx) :
    (iblk1 V c 4 t : Vec Ideal S128x128 .f32) x = (V c main_v29 : S128x128.Idx → EReal) x := by
  obtain ⟨-, -, -, -, -, -, -, -, e40, e41, -⟩ := idx_facts t
  unfold iblk1
  rw [View.read_apply]
  show V c main_v29 _ = V c main_v29 _
  congr 1
  funext a
  apply Fin.ext
  match a with
  | ⟨0, _⟩ => show win1_4.index t 0 * 128 + 1 * (x 0).val = (x 0).val; rw [e40]; omega
  | ⟨1, _⟩ => show win1_4.index t 1 * 128 + 1 * (x 1).val = (x 1).val; rw [e41]; omega

/-- What point t writes back is block t of the layer's whole-array function of the arrays the region finds. -/
theorem flushed_eq (c : Dev nD) (t : Fin cfg1.N) :
    (dat1 V c).flushed 5 t = ((cfg1.win 5).blk t).view.read (Elt Ideal)
      (G (V c main_v27) (V c main_v17) (V c main_v28) (V c main_v30) (V c main_v29)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  funext j
  show k1_pay1 (iblk1 V c 0 t) (iblk1 V c 1 t) (iblk1 V c 2 t) (iblk1 V c 4 t) (iblk1 V c 3 t) j
    = G (V c main_v27) (V c main_v17) (V c main_v28) (V c main_v30) (V c main_v29) (((cfg1.win 5).blk t).view.emb j)
  have r0 : ((((cfg1.win 5).blk t).view.emb j) 0).val = 5000 * t.val + (j 0).val := by
    show win1_5.index t 0 * 5000 + 1 * (j 0).val = _; rw [e50]; omega
  have r1 : ((((cfg1.win 5).blk t).view.emb j) 1).val = (j 1).val := by
    show win1_5.index t 1 * 128 + 1 * (j 1).val = _; rw [e51]; omega
  exact point_eq (iblk1 V c 0 t) (iblk1 V c 1 t) (iblk1 V c 2 t) (iblk1 V c 4 t) (iblk1 V c 3 t)
    (V c main_v27) (V c main_v17) (V c main_v28) (V c main_v30) (V c main_v29) j (((cfg1.win 5).blk t).view.emb j)
    (fun k => iblk_0 V c t _ _ r0 rfl) (fun k => iblk_1 V c t _ _ r0 rfl)
    (fun k n => iblk_2 V c t _) (fun k n => iblk_4 V c t _) (fun n => iblk_3 V c t _) r1

/-- An index of the result is in point t's block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v31).slice (win1_5.rect t)).set ↔ _
  rw [View.set_slice_whole, Rect.mem_set_unit]
  exact Iff.rfl

/-- The 20 row blocks tile the result: row r is in the block of point r / 5000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have ht : (i 0).val / 5000 < cfg1.N := by show _ < grid1.N; rw [hN]; omega
  refine ⟨⟨(i 0).val / 5000, ht⟩, flush1_5 _, ?_⟩
  rw [mem_blk]
  obtain ⟨-, -, -, -, -, -, -, -, -, -, e50, e51⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- The region's output array when the region is left. -/
theorem final (c : Dev nD) :
    (dat1 V c).arrAt 5 cfg1.N = G (V c main_v27) (V c main_v17) (V c main_v28) (V c main_v30) (V c main_v29) :=
  (dat1 V c).arrAt_eq_of_cover 5 _ (fun t _ => flushed_eq V c t) (cover)

end Cert.KernelIdeal.Region1

end
-- ==== Proof.Region2.lean ====
/-
  Region 2 (the third layer's call): what its output array holds when the region is left, as one function of the
  five arrays the region finds, for ANY contents `V` of the buffers at the region's entry.

  The grid has 20 points. At point t the body sees rows 5000·t … 5000·t + 4999 of the aggregated features and of the
  node features, the two weight matrices and the bias row whole, and writes rows 5000·t … 5000·t + 4999 of the result:
  entry (p, q) of the written block is the layer's output for row 5000·t + p (`GraphLayer.layerAt`), which reads row p
  of the two row blocks only. The 20 blocks tile the result, so the array ends at the layer's whole-array function.
-/
import proofs.«152363_j31954556683004_1_alg».proof.Proof.Gen.KernelIdeal.Frame
import proofs.«152363_j31954556683004_1_alg».proof.Proof.LibGraphLayer
import proofs.«152363_j31954556683004_1_alg».proof.Proof.Region0
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Idealize.ShloMosaic.ValueIdx Idealize.ShloMosaic.GraphLayer
open Cert.KernelIdeal.Region0 (G)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, q): the layer's output for row p of the two row blocks. -/
theorem pay_apply (x0 x1 : Vec Ideal S5000x128 .f32) (x2 x4 : Vec Ideal S128x128 .f32) (x3 : Vec Ideal S1x128 .f32)
    (p : Fin 5000) (q : Fin 128) :
    k2_pay1 x0 x1 x2 x4 x3 (ix2 p q)
      = layerAt (fun k => x0 (ix2 p k)) (fun k => x1 (ix2 p k)) (fun k n => x2 (ix2 k n)) (fun k n => x4 (ix2 k n))
          (fun n => x3 (ix2 (0 : Fin 1) n)) q := by
  unfold k2_pay1
  simp only [shapeCast_self]
  exact vecLayer_apply dot_S5000x128_S128x128_S5000x128_1_0_0_1_n_n rfl x0 x1 x2 x4 x3 _ _ p q

/-- One stored entry against the whole-array function: when the blocks' rows are the arrays' rows. -/
theorem point_eq (x0 x1 : Vec Ideal S5000x128 .f32) (x2 x4 : Vec Ideal S128x128 .f32) (x3 : Vec Ideal S1x128 .f32)
    (a h : S100000x128.Idx → EReal) (w : S128x128.Idx → EReal) (b : S1x128.Idx → EReal) (w' : S128x128.Idx → EReal)
    (y : S5000x128.Idx) (i : S100000x128.Idx)
    (h0 : ∀ k : Fin 128, x0 (ix2 (y 0) k) = a (ix2 (i 0) k))
    (h1 : ∀ k : Fin 128, x1 (ix2 (y 0) k) = h (ix2 (i 0) k))
    (h2 : ∀ (k : Fin 128) (n : Fin 128), x2 (ix2 k n) = w (ix2 k n))
    (h4 : ∀ (k : Fin 128) (n : Fin 128), x4 (ix2 k n) = w' (ix2 k n))
    (h3 : ∀ n : Fin 128, x3 (ix2 (0 : Fin 1) n) = b (ix2 (0 : Fin 1) n))
    (hi1 : (i 1).val = (y 1).val) :
    k2_pay1 x0 x1 x2 x4 x3 y = G a h w b w' i := by
  obtain ⟨p, q, rfl⟩ : ∃ (p : Fin 5000) (q : Fin 128), y = ix2 p q := ⟨y 0, y 1, eq_ix2 y⟩
  obtain ⟨r, s, rfl⟩ : ∃ (r : Fin 100000) (s : Fin 128), i = ix2 r s := ⟨i 0, i 1, eq_ix2 i⟩
  have hs : s = q := Fin.ext hi1
  subst hs
  rw [pay_apply]
  unfold Region0.G
  rw [layerG_apply]
  exact layerAt_congr h0 h1 h2 h4 h3 s

/-- The printed index maps over the grid: the row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 5000·t … of the aggregated features. -/
theorem iblk_0 (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v41 : S100000x128.Idx → EReal) k := by
  obtain ⟨e00, e01, -⟩ := idx_facts t
  unfold iblk2
  rw [View.read_apply]
  show V c main_v41 _ = V c main_v41 _
  congr 1
  funext a
  apply Fin.ext
  match a with
  | ⟨0, _⟩ => show win2_0.index t 0 * 5000 + 1 * (x 0).val = (k 0).val; rw [e00, hk0]; omega
  | ⟨1, _⟩ => show win2_0.index t 1 * 128 + 1 * (x 1).val = (k 1).val; rw [e01, hk1]; omega

/-- Window 1's block at point t is rows 5000·t … of the node features. -/
theorem iblk_1 (c : Dev nD) (t : Fin cfg2.N) (x : S5000x128.Idx) (k : S100000x128.Idx)
    (hk0 : (k 0).val = 5000 * t.val + (x 0).val) (hk1 : (k 1).val = (x 1).val) :
    (iblk2 V c 1 t : Vec Ideal S5000x128 .f32) x = (V c main_v31 : S100000x128.Idx → EReal) k := by
  obtain ⟨-, -, e10, e11, -⟩ := idx_facts t
  unfold iblk2
  rw [View.read_apply]
  show V c main_v31 _ = V c main_v31 _
  congr 1
  funext a
  apply Fin.ext
  match a with
  | ⟨0, _⟩ => show win2_1.index t 0 * 5000 + 1 * (x 0).val = (k 0).val; rw [e10, hk0]; omega
  | ⟨1, _⟩ => show win2_1.index t 1 * 128 + 1 * (x 1).val = (k 1).val; rw [e11, hk1]; omega

/-- Window 2's block at every point is the first weight matrix whole. -/
theorem iblk_2 (c : Dev nD) (t : Fin cfg2.N) (x : S128x128.Idx) :
    (iblk2 V c 2 t : Vec Ideal S128x128 .f32) x = (V c main_v42 : S128x128.Idx → EReal) x := by
  obtain ⟨-, -, -, -, e20, e21, -⟩ := idx_facts t
  unfold iblk2
  rw [View.read_apply]
  show V c main_v42 _ = V c main_v42 _
  congr 1
  funext a
  apply Fin.ext
  match a with
  | ⟨0, _⟩ => show win2_2.index t 0 * 128 + 1 * (x 0).val = (x 0).val; rw [e20]; omega
  | ⟨1, _⟩ => show win2_2.index t 1 * 128 + 1 * (x 1).val = (x 1).val; rw [e21]; omega

/-- Window 3's block at every point is the bias row whole. -/
theorem iblk_3 (c : Dev nD) (t : Fin cfg2.N) (x : S1x128.Idx) :
    (iblk2 V c 3 t : Vec Ideal S1x128 .f32) x = (V c main_v44 : S1x128.Idx → EReal) x := by
  obtain ⟨-, -, -, -, -, -, e30, e31, -⟩ := idx_facts t
  unfold iblk2
  rw [View.read_apply]
  show V c main_v44 _ = V c main_v44 _
  congr 1
  funext a
  apply Fin.ext
  match a with
  | ⟨0, _⟩ => show win2_3.index t 0 * 1 + 1 * (x 0).val = (x 0).val; rw [e30]; omega
  | ⟨1, _⟩ => show win2_3.index t 1 * 128 + 1 * (x 1).val = (x 1).val; rw [e31]; omega

/-- Window 4's block at every point is the second weight matrix whole. -/
theorem iblk_4 (c : Dev nD) (t : Fin cfg2.N) (x : S128x128.Idx) :
    (iblk2 V c 4 t : Vec Ideal S128x128 .f32) x = (V c main_v43 : S128x128.Idx → EReal) x := by
  obtain ⟨-, -, -, -, -, -, -, -, e40, e41, -⟩ := idx_facts t
  unfold iblk2
  rw [View.read_apply]
  show V c main_v43 _ = V c main_v43 _
  congr 1
  funext a
  apply Fin.ext
  match a with
  | ⟨0, _⟩ => show win2_4.index t 0 * 128 + 1 * (x 0).val = (x 0).val; rw [e40]; omega
  | ⟨1, _⟩ => show win2_4.index t 1 * 128 + 1 * (x 1).val = (x 1).val; rw [e41]; omega

/-- What point t writes back is block t of the layer's whole-array function of the arrays the region finds. -/
theorem flushed_eq (c : Dev nD) (t : Fin cfg2.N) :
    (dat2 V c).flushed 5 t = ((cfg2.win 5).blk t).view.read (Elt Ideal)
      (G (V c main_v41) (V c main_v31) (V c main_v42) (V c main_v44) (V c main_v43)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  funext j
  show k2_pay1 (iblk2 V c 0 t) (iblk2 V c 1 t) (iblk2 V c 2 t) (iblk2 V c 4 t) (iblk2 V c 3 t) j
    = G (V c main_v41) (V c main_v31) (V c main_v42) (V c main_v44) (V c main_v43) (((cfg2.win 5).blk t).view.emb j)
  have r0 : ((((cfg2.win 5).blk t).view.emb j) 0).val = 5000 * t.val + (j 0).val := by
    show win2_5.index t 0 * 5000 + 1 * (j 0).val = _; rw [e50]; omega
  have r1 : ((((cfg2.win 5).blk t).view.emb j) 1).val = (j 1).val := by
    show win2_5.index t 1 * 128 + 1 * (j 1).val = _; rw [e51]; omega
  exact point_eq (iblk2 V c 0 t) (iblk2 V c 1 t) (iblk2 V c 2 t) (iblk2 V c 4 t) (iblk2 V c 3 t)
    (V c main_v41) (V c main_v31) (V c main_v42) (V c main_v44) (V c main_v43) j (((cfg2.win 5).blk t).view.emb j)
    (fun k => iblk_0 V c t _ _ r0 rfl) (fun k => iblk_1 V c t _ _ r0 rfl)
    (fun k n => iblk_2 V c t _) (fun k n => iblk_4 V c t _) (fun n => iblk_3 V c t _) r1

/-- An index of the result is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v45).slice (win2_5.rect t)).set ↔ _
  rw [View.set_slice_whole, Rect.mem_set_unit]
  exact Iff.rfl

/-- The 20 row blocks tile the result: row r is in the block of point r / 5000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : grid2.N = 20 := N_2
  have ht : (i 0).val / 5000 < cfg2.N := by show _ < grid2.N; rw [hN]; omega
  refine ⟨⟨(i 0).val / 5000, ht⟩, flush2_5 _, ?_⟩
  rw [mem_blk]
  obtain ⟨-, -, -, -, -, -, -, -, -, -, e50, e51⟩ := idx_facts ⟨(i 0).val / 5000, ht⟩
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]; omega

/-- The region's output array when the region is left. -/
theorem final (c : Dev nD) :
    (dat2 V c).arrAt 5 cfg2.N = G (V c main_v41) (V c main_v31) (V c main_v42) (V c main_v44) (V c main_v43) :=
  (dat2 V c).arrAt_eq_of_cover 5 _ (fun t _ => flushed_eq V c t) (cover)

end Cert.KernelIdeal.Region2

end
-- ==== Proof.Region3.lean ====
/-
  Region 3 (the readout's call): what its output array holds when the region is left, as one function of the three
  arrays the region finds, for ANY contents `V` of the buffers at the region's entry.

  The grid has 20 points. At point t the body sees rows 5000·t … 5000·t + 4999 of the node features, the weight column
  and the one-entry bias whole, and writes rows 5000·t … 5000·t + 4999 of the one-column result: entry (p, 0) of the
  written block is ∑ k, h (5000·t + p, k) · w (k, 0) + b. The 20 blocks tile the result.
-/
import proofs.«152363_j31954556683004_1_alg».proof.Proof.Gen.KernelIdeal.Frame
import proofs.«152363_j31954556683004_1_alg».proof.Proof.LibGraphLayer
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen Idealize.ShloMosaic.ValueIdx Idealize.ShloMosaic.GraphLayer Idealize.ShloMosaic.Dense

variable (V : (c : Dev nD) → (b : Ref sig .tc) → Buf (Elt Ideal) ((c : Thread nD τ).loc b))

theorem hz : (![0, 0] : Fin 2 → Nat) = fun _ => 0 := funext fun a => by fin_cases a <;> rfl

/-- The readout's whole-array function of the region's three input arrays, in window order: node features, weight
    column, bias. -/
def G (h : S100000x128.Idx → EReal) (w : S128x1.Idx → EReal) (b : S1x1.Idx → EReal) : S100000x1.Idx → EReal :=
  readoutG h w (fun n => b (ix2 (0 : Fin 1) n))

/-- The body's stored value at entry (p, q): the affine map of row p of the row block. -/
theorem pay_apply (x0 : Vec Ideal S5000x128 .f32) (x1 : Vec Ideal S128x1 .f32) (x2 : Vec Ideal S1x1 .f32)
    (p : Fin 5000) (q : Fin 1) :
    k3_pay1 x0 x1 x2 (ix2 p q)
      = lin (fun k => x0 (ix2 p k)) (fun k n => x1 (ix2 k n)) (fun n => x2 (ix2 (0 : Fin 1) n)) q := by
  unfold k3_pay1
  simp only [shapeCast_self]
  exact vecReadout_apply dot_S5000x128_S128x1_S5000x1_1_0_0_1_n_n rfl x0 x1 x2 _ _ p q

/-- One stored entry against the whole-array function: when the block's rows are the array's rows. -/
theorem point_eq (x0 : Vec Ideal S5000x128 .f32) (x1 : Vec Ideal S128x1 .f32) (x2 : Vec Ideal S1x1 .f32)
    (h : S100000x128.Idx → EReal) (w : S128x1.Idx → EReal) (b : S1x1.Idx → EReal)
    (y : S5000x1.Idx) (i : S100000x1.Idx)
    (h0 : ∀ k : Fin 128, x0 (ix2 (y 0) k) = h (ix2 (i 0) k))
    (h1 : ∀ (k : Fin 128) (n : Fin 1), x1 (ix2 k n) = w (ix2 k n))
    (h2 : ∀ n : Fin 1, x2 (ix2 (0 : Fin 1) n) = b (ix2 (0 : Fin 1) n))
    (hi1 : (i 1).val = (y 1).val) :
    k3_pay1 x0 x1 x2 y = G h w b i := by
  obtain ⟨p, q, rfl⟩ : ∃ (p : Fin 5000) (q : Fin 1), y = ix2 p q := ⟨y 0, y 1, eq_ix2 y⟩
  obtain ⟨r, s, rfl⟩ : ∃ (r : Fin 100000) (s : Fin 1), i = ix2 r s := ⟨i 0, i 1, eq_ix2 i⟩
  have hs : s = q := Fin.ext hi1
  subst hs
  rw [pay_apply]
  unfold G
  rw [readoutG_apply]
  exact lin_congr' h0 h1 h2 s

/-- The printed index maps over the grid: the row blocks move with the point, the weight and the bias stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point t is rows 5000·t … of the node features. -/
theorem iblk_0 (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v45 : S100000x128.Idx → EReal) k := by
  obtain ⟨e00, e01, -⟩ := idx_facts t
  unfold iblk3
  rw [View.read_apply]
  show V c main_v45 _ = V c main_v45 _
  congr 1
  funext a
  apply Fin.ext
  match a with
  | ⟨0, _⟩ => show win3_0.index t 0 * 5000 + 1 * (x 0).val = (k 0).val; rw [e00, hk0]; omega
  | ⟨1, _⟩ => show win3_0.index t 1 * 128 + 1 * (x 1).val = (k 1).val; rw [e01, hk1]; omega

/-- Window 1's block at every point is the weight column whole. -/
theorem iblk_1 (c : Dev nD) (t : Fin cfg3.N) (x : S128x1.Idx) :
    (iblk3 V c 1 t : Vec Ideal S128x1 .f32) x = (V c main_v46 : S128x1.Idx → EReal) x := by
  obtain ⟨-, -, e10, e11, -⟩ := idx_facts t
  unfold iblk3
  rw [View.read_apply]
  show V c main_v46 _ = V c main_v46 _
  congr 1
  funext a
  apply Fin.ext
  match a with
  | ⟨0, _⟩ => show win3_1.index t 0 * 128 + 1 * (x 0).val = (x 0).val; rw [e10]; omega
  | ⟨1, _⟩ => show win3_1.index t 1 * 1 + 1 * (x 1).val = (x 1).val; rw [e11]; omega

/-- Window 2's block at every point is the one-entry bias whole. -/
theorem iblk_2 (c : Dev nD) (t : Fin cfg3.N) (x : S1x1.Idx) :
    (iblk3 V c 2 t : Vec Ideal S1x1 .f32) x = (V c main_v47 : S1x1.Idx → EReal) x := by
  obtain ⟨-, -, -, -, e20, e21, -⟩ := idx_facts t
  unfold iblk3
  rw [View.read_apply]
  show V c main_v47 _ = V c main_v47 _
  congr 1
  funext a
  apply Fin.ext
  match a with
  | ⟨0, _⟩ => show win3_2.index t 0 * 1 + 1 * (x 0).val = (x 0).val; rw [e20]; omega
  | ⟨1, _⟩ => show win3_2.index t 1 * 1 + 1 * (x 1).val = (x 1).val; rw [e21]; omega

/-- What point t writes back is block t of the readout's whole-array function of the arrays the region finds. -/
theorem flushed_eq (c : Dev nD) (t : Fin cfg3.N) :
    (dat3 V c).flushed 3 t = ((cfg3.win 3).blk t).view.read (Elt Ideal)
      (G (V c main_v45) (V c main_v46) (V c main_v47)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x1) hz, View.ld_unit_zero (S := S1x1) hz]
  obtain ⟨-, -, -, -, -, -, e30, e31⟩ := idx_facts t
  funext j
  show k3_pay1 (iblk3 V c 0 t) (iblk3 V c 1 t) (iblk3 V c 2 t) j
    = G (V c main_v45) (V c main_v46) (V c main_v47) (((cfg3.win 3).blk t).view.emb j)
  have r0 : ((((cfg3.win 3).blk t).view.emb j) 0).val = 5000 * t.val + (j 0).val := by
    show win3_3.index t 0 * 5000 + 1 * (j 0).val = _; rw [e30]; omega
  have r1 : ((((cfg3.win 3).blk t).view.emb j) 1).val = (j 1).val := by
    show win3_3.index t 1 * 1 + 1 * (j 1).val = _; rw [e31]; omega
  exact point_eq (iblk3 V c 0 t) (iblk3 V c 1 t) (iblk3 V c 2 t)
    (V c main_v45) (V c main_v46) (V c main_v47) j (((cfg3.win 3).blk t).view.emb j)
    (fun k => iblk_0 V c t _ _ r0 rfl) (fun k n => iblk_1 V c t _) (fun n => iblk_2 V c t _) r1

/-- An index of the result is in point t's block iff each coordinate is in the block's range on its axis. -/
theorem mem_blk (t : Fin cfg3.N) (i : S100000x1.Idx) :
    i ∈ ((cfg3.win 3).blk t).view.set ↔ ∀ a : Fin 2, win3_3.index t a * S5000x1.size a ≤ (i a).val
      ∧ (i a).val < win3_3.index t a * S5000x1.size a + S5000x1.size a := by
  show i ∈ ((View.whole main_v48).slice (win3_3.rect t)).set ↔ _
  rw [View.set_slice_whole, Rect.mem_set_unit]
  exact Iff.rfl

/-- The 20 row blocks tile the result: row r is in the block of point r / 5000. -/
theorem cover (i : S100000x1.Idx) : ∃ t : Fin cfg3.N, (cfg3.win 3).flush t = true ∧ i ∈ ((cfg3.win 3).blk t).view.set := by
  have hi0 : (i 0).val < 100000 := (i 0).isLt
  have hi1 : (i 1).val < 1 := (i 1).isLt
  have hN : grid3.N = 20 := N_3
  have ht : (i 0).val / 5000 < cfg3.N := by show _ < grid3.N; rw [hN]; omega
  refine ⟨⟨(i 0).val / 5000, ht⟩, flush3_3 _, ?_⟩
  rw [mem_blk]
  obtain ⟨-, -, -, -, -, -, e30, e31⟩ := idx_facts ⟨(i 0).val / 5000, ht⟩
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win3_3.index ⟨(i 0).val / 5000, ht⟩ (1 : Fin 2) * 1 ≤ (i 1).val
      ∧ (i 1).val < win3_3.index ⟨(i 0).val / 5000, ht⟩ (1 : Fin 2) * 1 + 1
    rw [e31]; omega

/-- The region's output array when the region is left. -/
theorem final (c : Dev nD) :
    (dat3 V c).arrAt 3 cfg3.N = G (V c main_v45) (V c main_v46) (V c main_v47) :=
  (dat3 V c).arrAt_eq_of_cover 3 _ (fun t _ => flushed_eq V c t) (cover)

end Cert.KernelIdeal.Region3

end
-- ==== Proof.Net.lean ====
/-
  The network as one function of its thirteen argument arrays.

  Each of the three layers first aggregates: row j of the aggregated features is the sum of the feature rows of the
  source nodes of the edges that end at node j (a gather of the source rows followed by a scatter-add onto the target
  rows, negative source indices wrapped once by the node count, as the host program spells it). Both programs perform
  this aggregation by the same host operations, so it is kept as the host's own term (`aggS`) and never opened. A
  layer is then the whole-array function `Region0.G` of the aggregated features, the node features, the two transposed
  weight matrices and the bias recast as a row; the readout is `Region3.G` of the last layer's features, the transposed
  weight row and the bias recast as a one-entry matrix.
-/
import proofs.«152363_j31954556683004_1_alg».proof.Proof.Region0
import proofs.«152363_j31954556683004_1_alg».proof.Proof.Region3

noncomputable section

namespace Cert.KernelIdeal.Net

open Cert.KernelIdeal Cert.KernelIdeal.Facts₀ Idealize.ShloMosaic

abbrev EdgeT := (⟨S2x1600000, .i32⟩ : BufTy).Contents (Elt Ideal)
abbrev IdxT := (⟨S1600000, .i32⟩ : BufTy).Contents (Elt Ideal)
abbrev FeatT := (⟨S100000x128, .f32⟩ : BufTy).Contents (Elt Ideal)
abbrev WeightT := (⟨S128x128, .f32⟩ : BufTy).Contents (Elt Ideal)
abbrev BiasT := (⟨S128, .f32⟩ : BufTy).Contents (Elt Ideal)
abbrev OutWeightT := (⟨S1x128, .f32⟩ : BufTy).Contents (Elt Ideal)
abbrev OutBiasT := (⟨S1, .f32⟩ : BufTy).Contents (Elt Ideal)
abbrev OutT := (⟨S100000x1, .f32⟩ : BufTy).Contents (Elt Ideal)

/-- The edges' source nodes: row 0 of the edge list. -/
def edgeRow0 (e : EdgeT) : IdxT :=
  shapeCast S1600000 (extractStridedSlice S1x1600000 ![0, 0] e slices_S2x1600000_S1x1600000_0_0) shapeCasts_S1x1600000_S1600000

/-- The edges' target nodes: row 1 of the edge list. -/
def edgeRow1 (e : EdgeT) : IdxT :=
  shapeCast S1600000 (extractStridedSlice S1x1600000 ![1, 0] e slices_S2x1600000_S1x1600000_1_0) shapeCasts_S1x1600000_S1600000

/-- The aggregation of the features `h` along the edges (sources `s`, targets `d`): the host's gather of the source
    rows scattered by addition onto the target rows of a zero array. -/
def aggS (s d : IdxT) (h : FeatT) : FeatT :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- One layer on whole arrays: aggregate along the edges, then the layer's function with the weights transposed and
    the bias as a row. -/
def layerK (e : EdgeT) (h : FeatT) (w : WeightT) (b : BiasT) (r : WeightT) : FeatT :=
  Region0.G (aggS (edgeRow0 e) (edgeRow1 e) h) h (transpose S128x128 [1, 0] w transposes_S128x128_S128x128_1_0)
    (shapeCast S1x128 b shapeCasts_S128_S1x128) (transpose S128x128 [1, 0] r transposes_S128x128_S128x128_1_0)

/-- The readout on whole arrays. -/
def readK (h : FeatT) (wo : OutWeightT) (bo : OutBiasT) : OutT :=
  Region3.G h (transpose S128x1 [1, 0] wo transposes_S1x128_S128x1_1_0) (shapeCast S1x1 bo shapeCasts_S1_S1x1)

/-- The network: three layers and the readout. -/
def net (x : FeatT) (e : EdgeT) (w0 : WeightT) (b0 : BiasT) (r0 : WeightT) (w1 : WeightT) (b1 : BiasT) (r1 : WeightT)
    (w2 : WeightT) (b2 : BiasT) (r2 : WeightT) (wo : OutWeightT) (bo : OutBiasT) : OutT :=
  readK (layerK e (layerK e (layerK e x w0 b0 r0) w1 b1 r1) w2 b2 r2) wo bo

end Cert.KernelIdeal.Net

end
-- ==== Proof.KernelFold.lean ====
/-
  The idealized kernel program's result, read back through the fold of buffer contents along @main.

  The last region's output array is the readout of what region 2 left, region 2's output is the third layer of what
  region 1 left, and so on back to the launch memory. Between two regions the host operations only aggregate the
  previous layer's output along the edges, transpose the next layer's weights and recast its bias; the edge rows were
  cut out of the edge list before the first region and no later segment writes them, and no segment writes an argument.
  So each boundary's contents at the buffers a later segment reads are named here (`W2_v1` … `W6_arg12`), then each
  region's output (`W2_v17`, `W4_v31`, `W6_v45`, `W8_v48`) as the network's layers of the argument arrays.
-/
import proofs.«152363_j31954556683004_1_alg».proof.Proof.Gen.KernelIdeal.Frame
import proofs.«152363_j31954556683004_1_alg».proof.Proof.Region0
import proofs.«152363_j31954556683004_1_alg».proof.Proof.Region1
import proofs.«152363_j31954556683004_1_alg».proof.Proof.Region2
import proofs.«152363_j31954556683004_1_alg».proof.Proof.Region3
import proofs.«152363_j31954556683004_1_alg».proof.Proof.Net
import Idealize.ShloMosaic.Lib.StableHlo.Run

set_option maxRecDepth 16384

noncomputable section

namespace Cert.KernelIdeal.Fold

open Cert.KernelIdeal Cert.KernelIdeal.Facts₀ Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

/-- The layer's whole-array function respects equal arrays. -/
theorem layer_congr {a a' h h' : S100000x128.Idx → EReal} {w w' r r' : S128x128.Idx → EReal} {b b' : S1x128.Idx → EReal}
    (e0 : a = a') (e1 : h = h') (e2 : w = w') (e3 : b = b') (e4 : r = r') :
    Region0.G a h w b r = Region0.G a' h' w' b' r' := by
  subst e0 e1 e2 e3 e4; rfl

/-- The readout's whole-array function respects equal arrays. -/
theorem readout_congr {h h' : S100000x128.Idx → EReal} {w w' : S128x1.Idx → EReal} {b b' : S1x1.Idx → EReal}
    (e0 : h = h') (e1 : w = w') (e2 : b = b') : Region3.G h w b = Region3.G h' w' b' := by
  subst e0 e1 e2; rfl

/-! ## The buffers later segments read, at each region's exit -/

theorem W2_v1 (c : Dev nD) : W2 m ρ c (Proc.devRef .tc main_v1) = edgeRow0 (m ((c : Thread nD τ).loc main_arg1)) :=
  (W2_of_ne m ρ c main_v1 (by decide)).trans (show W1 m ρ c (Proc.devRef .tc main_v1) = edgeRow0 (m ((c : Thread nD τ).loc main_arg1)) from by dsimp only [W1]; after_results_simp <;> rfl)

theorem W2_v3 (c : Dev nD) : W2 m ρ c (Proc.devRef .tc main_v3) = edgeRow1 (m ((c : Thread nD τ).loc main_arg1)) :=
  (W2_of_ne m ρ c main_v3 (by decide)).trans (show W1 m ρ c (Proc.devRef .tc main_v3) = edgeRow1 (m ((c : Thread nD τ).loc main_arg1)) from by dsimp only [W1]; after_results_simp <;> rfl)

theorem W2_arg5 (c : Dev nD) : W2 m ρ c (Proc.devRef .tc main_arg5) = (m ((c : Thread nD τ).loc main_arg5)) :=
  (W2_of_ne m ρ c main_arg5 (by decide)).trans (show W1 m ρ c (Proc.devRef .tc main_arg5) = (m ((c : Thread nD τ).loc main_arg5)) from by dsimp only [W1]; after_results_simp <;> rfl)

theorem W2_arg6 (c : Dev nD) : W2 m ρ c (Proc.devRef .tc main_arg6) = (m ((c : Thread nD τ).loc main_arg6)) :=
  (W2_of_ne m ρ c main_arg6 (by decide)).trans (show W1 m ρ c (Proc.devRef .tc main_arg6) = (m ((c : Thread nD τ).loc main_arg6)) from by dsimp only [W1]; after_results_simp <;> rfl)

theorem W2_arg7 (c : Dev nD) : W2 m ρ c (Proc.devRef .tc main_arg7) = (m ((c : Thread nD τ).loc main_arg7)) :=
  (W2_of_ne m ρ c main_arg7 (by decide)).trans (show W1 m ρ c (Proc.devRef .tc main_arg7) = (m ((c : Thread nD τ).loc main_arg7)) from by dsimp only [W1]; after_results_simp <;> rfl)

theorem W2_arg8 (c : Dev nD) : W2 m ρ c (Proc.devRef .tc main_arg8) = (m ((c : Thread nD τ).loc main_arg8)) :=
  (W2_of_ne m ρ c main_arg8 (by decide)).trans (show W1 m ρ c (Proc.devRef .tc main_arg8) = (m ((c : Thread nD τ).loc main_arg8)) from by dsimp only [W1]; after_results_simp <;> rfl)

theorem W2_arg9 (c : Dev nD) : W2 m ρ c (Proc.devRef .tc main_arg9) = (m ((c : Thread nD τ).loc main_arg9)) :=
  (W2_of_ne m ρ c main_arg9 (by decide)).trans (show W1 m ρ c (Proc.devRef .tc main_arg9) = (m ((c : Thread nD τ).loc main_arg9)) from by dsimp only [W1]; after_results_simp <;> rfl)

theorem W2_arg10 (c : Dev nD) : W2 m ρ c (Proc.devRef .tc main_arg10) = (m ((c : Thread nD τ).loc main_arg10)) :=
  (W2_of_ne m ρ c main_arg10 (by decide)).trans (show W1 m ρ c (Proc.devRef .tc main_arg10) = (m ((c : Thread nD τ).loc main_arg10)) from by dsimp only [W1]; after_results_simp <;> rfl)

theorem W2_arg11 (c : Dev nD) : W2 m ρ c (Proc.devRef .tc main_arg11) = (m ((c : Thread nD τ).loc main_arg11)) :=
  (W2_of_ne m ρ c main_arg11 (by decide)).trans (show W1 m ρ c (Proc.devRef .tc main_arg11) = (m ((c : Thread nD τ).loc main_arg11)) from by dsimp only [W1]; after_results_simp <;> rfl)

theorem W2_arg12 (c : Dev nD) : W2 m ρ c (Proc.devRef .tc main_arg12) = (m ((c : Thread nD τ).loc main_arg12)) :=
  (W2_of_ne m ρ c main_arg12 (by decide)).trans (show W1 m ρ c (Proc.devRef .tc main_arg12) = (m ((c : Thread nD τ).loc main_arg12)) from by dsimp only [W1]; after_results_simp <;> rfl)

theorem W4_v1 (c : Dev nD) : W4 m ρ c (Proc.devRef .tc main_v1) = edgeRow0 (m ((c : Thread nD τ).loc main_arg1)) :=
  (W4_of_ne m ρ c main_v1 (by decide)).trans ((show W3 m ρ c (Proc.devRef .tc main_v1) = W2 m ρ c (Proc.devRef .tc main_v1) from by dsimp only [W3]; after_results_simp <;> rfl).trans (W2_v1 m ρ c))

theorem W4_v3 (c : Dev nD) : W4 m ρ c (Proc.devRef .tc main_v3) = edgeRow1 (m ((c : Thread nD τ).loc main_arg1)) :=
  (W4_of_ne m ρ c main_v3 (by decide)).trans ((show W3 m ρ c (Proc.devRef .tc main_v3) = W2 m ρ c (Proc.devRef .tc main_v3) from by dsimp only [W3]; after_results_simp <;> rfl).trans (W2_v3 m ρ c))

theorem W4_arg8 (c : Dev nD) : W4 m ρ c (Proc.devRef .tc main_arg8) = (m ((c : Thread nD τ).loc main_arg8)) :=
  (W4_of_ne m ρ c main_arg8 (by decide)).trans ((show W3 m ρ c (Proc.devRef .tc main_arg8) = W2 m ρ c (Proc.devRef .tc main_arg8) from by dsimp only [W3]; after_results_simp <;> rfl).trans (W2_arg8 m ρ c))

theorem W4_arg9 (c : Dev nD) : W4 m ρ c (Proc.devRef .tc main_arg9) = (m ((c : Thread nD τ).loc main_arg9)) :=
  (W4_of_ne m ρ c main_arg9 (by decide)).trans ((show W3 m ρ c (Proc.devRef .tc main_arg9) = W2 m ρ c (Proc.devRef .tc main_arg9) from by dsimp only [W3]; after_results_simp <;> rfl).trans (W2_arg9 m ρ c))

theorem W4_arg10 (c : Dev nD) : W4 m ρ c (Proc.devRef .tc main_arg10) = (m ((c : Thread nD τ).loc main_arg10)) :=
  (W4_of_ne m ρ c main_arg10 (by decide)).trans ((show W3 m ρ c (Proc.devRef .tc main_arg10) = W2 m ρ c (Proc.devRef .tc main_arg10) from by dsimp only [W3]; after_results_simp <;> rfl).trans (W2_arg10 m ρ c))

theorem W4_arg11 (c : Dev nD) : W4 m ρ c (Proc.devRef .tc main_arg11) = (m ((c : Thread nD τ).loc main_arg11)) :=
  (W4_of_ne m ρ c main_arg11 (by decide)).trans ((show W3 m ρ c (Proc.devRef .tc main_arg11) = W2 m ρ c (Proc.devRef .tc main_arg11) from by dsimp only [W3]; after_results_simp <;> rfl).trans (W2_arg11 m ρ c))

theorem W4_arg12 (c : Dev nD) : W4 m ρ c (Proc.devRef .tc main_arg12) = (m ((c : Thread nD τ).loc main_arg12)) :=
  (W4_of_ne m ρ c main_arg12 (by decide)).trans ((show W3 m ρ c (Proc.devRef .tc main_arg12) = W2 m ρ c (Proc.devRef .tc main_arg12) from by dsimp only [W3]; after_results_simp <;> rfl).trans (W2_arg12 m ρ c))

theorem W6_arg11 (c : Dev nD) : W6 m ρ c (Proc.devRef .tc main_arg11) = (m ((c : Thread nD τ).loc main_arg11)) :=
  (W6_of_ne m ρ c main_arg11 (by decide)).trans ((show W5 m ρ c (Proc.devRef .tc main_arg11) = W4 m ρ c (Proc.devRef .tc main_arg11) from by dsimp only [W5]; after_results_simp <;> rfl).trans (W4_arg11 m ρ c))

theorem W6_arg12 (c : Dev nD) : W6 m ρ c (Proc.devRef .tc main_arg12) = (m ((c : Thread nD τ).loc main_arg12)) :=
  (W6_of_ne m ρ c main_arg12 (by decide)).trans ((show W5 m ρ c (Proc.devRef .tc main_arg12) = W4 m ρ c (Proc.devRef .tc main_arg12) from by dsimp only [W5]; after_results_simp <;> rfl).trans (W4_arg12 m ρ c))

/-! ## The regions' outputs -/

set_option maxHeartbeats 2000000 in
/-- Region 0 leaves the first layer of the arguments. -/
theorem W2_v17 (c : Dev nD) : W2 m ρ c (Proc.devRef .tc main_v17) = (layerK (m ((c : Thread nD τ).loc main_arg1)) (m ((c : Thread nD τ).loc main_arg0)) (m ((c : Thread nD τ).loc main_arg2)) (m ((c : Thread nD τ).loc main_arg3)) (m ((c : Thread nD τ).loc main_arg4))) := by
  refine (W2_arr m ρ c 5).trans ((Region0.final (V1 m ρ) c).trans ?_)
  have e0 : V1 m ρ c main_v13 = aggS (edgeRow0 (m ((c : Thread nD τ).loc main_arg1))) (edgeRow1 (m ((c : Thread nD τ).loc main_arg1))) (m ((c : Thread nD τ).loc main_arg0)) := by
    dsimp only [V1, W1]; after_results_simp <;> rfl
  have e1 : V1 m ρ c main_arg0 = (m ((c : Thread nD τ).loc main_arg0)) := by
    dsimp only [V1, W1]; after_results_simp <;> rfl
  have e2 : V1 m ρ c main_v14 = transpose S128x128 [1, 0] (m ((c : Thread nD τ).loc main_arg2)) Facts₀.transposes_S128x128_S128x128_1_0 := by
    dsimp only [V1, W1]; after_results_simp <;> rfl
  have e3 : V1 m ρ c main_v16 = shapeCast S1x128 (m ((c : Thread nD τ).loc main_arg3)) Facts₀.shapeCasts_S128_S1x128 := by
    dsimp only [V1, W1]; after_results_simp <;> rfl
  have e4 : V1 m ρ c main_v15 = transpose S128x128 [1, 0] (m ((c : Thread nD τ).loc main_arg4)) Facts₀.transposes_S128x128_S128x128_1_0 := by
    dsimp only [V1, W1]; after_results_simp <;> rfl
  exact layer_congr e0 e1 e2 e3 e4

set_option maxHeartbeats 2000000 in
/-- Region 1 leaves the second layer. -/
theorem W4_v31 (c : Dev nD) : W4 m ρ c (Proc.devRef .tc main_v31) = (layerK (m ((c : Thread nD τ).loc main_arg1)) (layerK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
  refine (W4_arr m ρ c 5).trans ((Region1.final (V3 m ρ) c).trans ?_)
  have e0 : V3 m ρ c main_v27 = aggS (edgeRow0 (m ((c : Thread nD τ).loc main_arg1))) (edgeRow1 (m ((c : Thread nD τ).loc main_arg1))) (layerK (m ((c : Thread nD τ).loc main_arg1)) (m ((c : Thread nD τ).loc main_arg0)) (m ((c : Thread nD τ).loc main_arg2)) (m ((c : Thread nD τ).loc main_arg3)) (m ((c : Thread nD τ).loc main_arg4))) := by
    dsimp only [V3, W3]; after_results_simp
    rw [W2_v1 m ρ c, W2_v3 m ρ c, W2_v17 m ρ c] <;> rfl
  have e1 : V3 m ρ c main_v17 = (layerK (m ((c : Thread nD τ).loc main_arg1)) (m ((c : Thread nD τ).loc main_arg0)) (m ((c : Thread nD τ).loc main_arg2)) (m ((c : Thread nD τ).loc main_arg3)) (m ((c : Thread nD τ).loc main_arg4))) := by
    dsimp only [V3, W3]; after_results_simp
    exact W2_v17 m ρ c
  have e2 : V3 m ρ c main_v28 = transpose S128x128 [1, 0] (m ((c : Thread nD τ).loc main_arg5)) Facts₀.transposes_S128x128_S128x128_1_0 := by
    dsimp only [V3, W3]; after_results_simp
    rw [W2_arg5 m ρ c] <;> rfl
  have e3 : V3 m ρ c main_v30 = shapeCast S1x128 (m ((c : Thread nD τ).loc main_arg6)) Facts₀.shapeCasts_S128_S1x128 := by
    dsimp only [V3, W3]; after_results_simp
    rw [W2_arg6 m ρ c] <;> rfl
  have e4 : V3 m ρ c main_v29 = transpose S128x128 [1, 0] (m ((c : Thread nD τ).loc main_arg7)) Facts₀.transposes_S128x128_S128x128_1_0 := by
    dsimp only [V3, W3]; after_results_simp
    rw [W2_arg7 m ρ c] <;> rfl
  exact layer_congr e0 e1 e2 e3 e4

set_option maxHeartbeats 2000000 in
/-- Region 2 leaves the third layer. -/
theorem W6_v45 (c : Dev nD) : W6 m ρ c (Proc.devRef .tc main_v45) = (layerK (m ((c : Thread nD τ).loc main_arg1)) (layerK (m ((c : Thread nD τ).loc main_arg1)) (layerK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10))) := by
  refine (W6_arr m ρ c 5).trans ((Region2.final (V5 m ρ) c).trans ?_)
  have e0 : V5 m ρ c main_v41 = aggS (edgeRow0 (m ((c : Thread nD τ).loc main_arg1))) (edgeRow1 (m ((c : Thread nD τ).loc main_arg1))) (layerK (m ((c : Thread nD τ).loc main_arg1)) (layerK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
    dsimp only [V5, W5]; after_results_simp
    rw [W4_v1 m ρ c, W4_v3 m ρ c, W4_v31 m ρ c] <;> rfl
  have e1 : V5 m ρ c main_v31 = (layerK (m ((c : Thread nD τ).loc main_arg1)) (layerK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) := by
    dsimp only [V5, W5]; after_results_simp
    exact W4_v31 m ρ c
  have e2 : V5 m ρ c main_v42 = transpose S128x128 [1, 0] (m ((c : Thread nD τ).loc main_arg8)) Facts₀.transposes_S128x128_S128x128_1_0 := by
    dsimp only [V5, W5]; after_results_simp
    rw [W4_arg8 m ρ c] <;> rfl
  have e3 : V5 m ρ c main_v44 = shapeCast S1x128 (m ((c : Thread nD τ).loc main_arg9)) Facts₀.shapeCasts_S128_S1x128 := by
    dsimp only [V5, W5]; after_results_simp
    rw [W4_arg9 m ρ c] <;> rfl
  have e4 : V5 m ρ c main_v43 = transpose S128x128 [1, 0] (m ((c : Thread nD τ).loc main_arg10)) Facts₀.transposes_S128x128_S128x128_1_0 := by
    dsimp only [V5, W5]; after_results_simp
    rw [W4_arg10 m ρ c] <;> rfl
  exact layer_congr e0 e1 e2 e3 e4

set_option maxHeartbeats 2000000 in
/-- Region 3 leaves the network's result. -/
theorem W8_v48 (c : Dev nD) : W8 m ρ c (Proc.devRef .tc main_v48)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W8_arr m ρ c 3).trans ((Region3.final (V7 m ρ) c).trans ?_)
  have e0 : V7 m ρ c main_v45 = (layerK (m ((c : Thread nD τ).loc main_arg1)) (layerK (m ((c : Thread nD τ).loc main_arg1)) (layerK (m ((c : Thread nD τ).loc main_arg1)) (m ((c : Thread nD τ).loc main_arg0)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10))) := by
    dsimp only [V7, W7]; after_results_simp
    exact W6_v45 m ρ c
  have e1 : V7 m ρ c main_v46 = transpose S128x1 [1, 0] (m ((c : Thread nD τ).loc main_arg11)) Facts₀.transposes_S1x128_S128x1_1_0 := by
    dsimp only [V7, W7]; after_results_simp
    rw [W6_arg11 m ρ c] <;> rfl
  have e2 : V7 m ρ c main_v47 = shapeCast S1x1 (m ((c : Thread nD τ).loc main_arg12)) Facts₀.shapeCasts_S1_S1x1 := by
    dsimp only [V7, W7]; after_results_simp
    rw [W6_arg12 m ρ c] <;> rfl
  exact readout_congr e0 e1 e2

end Cert.KernelIdeal.Fold

end
-- ==== Proof.RefSide.lean ====
/-
  The reference program's result as the network function of its argument arrays.

  The reference spells a layer as two `dot_general`s of the aggregated and the node features with the transposed
  weights, the bias broadcast over the rows and added to the first, the second added on, and the maximum with a broadcast
  zero; the readout as one `dot_general` plus the broadcast bias. Read at an entry each is the layer's (the readout's)
  whole-array function: the same three terms added in the same order. The aggregation is the same host term in both
  programs. So the run's composed term is `Net.net` of the arguments.
-/
import proofs.«152363_j31954556683004_1_alg».proof.Proof.Gen.ReferenceIdeal.Run
import proofs.«152363_j31954556683004_1_alg».proof.Proof.Net

set_option maxRecDepth 16384

noncomputable section

namespace Cert.RefSide

open Cert.ReferenceIdeal Cert.ReferenceIdeal.Facts₀ Cert.ReferenceIdeal.Value
open Idealize.ShloMosaic Idealize.ShloMosaic.TcCoe Idealize.SL.Sem
open Idealize.ShloMosaic.ValueIdx Idealize.ShloMosaic.GraphLayer Idealize.ShloMosaic.Dense

abbrev EdgeT := (⟨S2x1600000, .i32⟩ : BufTy).Contents (Elt Ideal)
abbrev IdxT := (⟨S1600000, .i32⟩ : BufTy).Contents (Elt Ideal)
abbrev FeatT := (⟨S100000x128, .f32⟩ : BufTy).Contents (Elt Ideal)
abbrev WeightT := (⟨S128x128, .f32⟩ : BufTy).Contents (Elt Ideal)
abbrev BiasT := (⟨S128, .f32⟩ : BufTy).Contents (Elt Ideal)
abbrev OutWeightT := (⟨S1x128, .f32⟩ : BufTy).Contents (Elt Ideal)
abbrev OutColT := (⟨S128x1, .f32⟩ : BufTy).Contents (Elt Ideal)
abbrev OutBiasT := (⟨S1, .f32⟩ : BufTy).Contents (Elt Ideal)
abbrev OutT := (⟨S100000x1, .f32⟩ : BufTy).Contents (Elt Ideal)

/-- The reference's layer on whole arrays, in the host's spelling, of the aggregated features, the node features, the
    transposed weights and the bias. -/
def layerT (a h : FeatT) (wT : WeightT) (b : BiasT) (rT : WeightT) : FeatT :=
  maximumf
    (addf
      (addf (Host.dotGeneral (F := Ideal) (φ₁ := .f32) (φ₂ := .f32) dot_S100000x128_S128x128_S100000x128_1_0_0_1_n_n none a wT)
        (broadcastInDim S100000x128 ![0, 1] bcast_S1x128_S100000x128_0_1 (broadcastInDim S1x128 ![1] bcast_S128_S1x128_1 b)))
      (Host.dotGeneral (F := Ideal) (φ₁ := .f32) (φ₂ := .f32) dot_S100000x128_S128x128_S100000x128_1_0_0_1_n_n none h rT))
    (broadcastInDim S100000x128 ![] bcast_S_S100000x128 (constant (F := Ideal) S_ .f32 0x00000000#32))

/-- The reference's readout on whole arrays, in the host's spelling. -/
def readoutT (h : FeatT) (woT : OutColT) (bo : OutBiasT) : OutT :=
  addf (Host.dotGeneral (F := Ideal) (φ₁ := .f32) (φ₂ := .f32) dot_S100000x128_S128x1_S100000x1_1_0_0_1_n_n none h woT)
    (broadcastInDim S100000x1 ![0, 1] bcast_S1x1_S100000x1_0_1 (broadcastInDim S1x1 ![1] bcast_S1_S1x1_1 bo))

/-- The host's layer is the layer's whole-array function, the bias recast as a row. -/
theorem layerT_eq (a h : FeatT) (wT : WeightT) (b : BiasT) (rT : WeightT) (hc : S128.ShapeCasts S1x128) :
    layerT a h wT b rT = Cert.KernelIdeal.Region0.G a h wT (shapeCast S1x128 b hc) rT := by
  funext i
  obtain ⟨p, q, rfl⟩ : ∃ (p : Fin 100000) (q : Fin 128), i = ix2 p q := ⟨i 0, i 1, eq_ix2 i⟩
  unfold layerT Cert.KernelIdeal.Region0.G
  rw [layerG_apply]
  refine (hostLayer_apply dot_S100000x128_S128x128_S100000x128_1_0_0_1_n_n rfl a h wT rT b
    bcast_S128_S1x128_1 bcast_S1x128_S100000x128_0_1 bcast_S_S100000x128 p q).trans ?_
  exact layerAt_congr (fun _ => rfl) (fun _ => rfl) (fun _ _ => rfl) (fun _ _ => rfl)
    (fun n => (shapeCast_row_apply b hc n).symm) q

/-- The host's readout is the readout's whole-array function, the bias recast as a one-entry matrix. -/
theorem readoutT_eq (h : FeatT) (woT : OutColT) (bo : OutBiasT) (hc : S1.ShapeCasts S1x1) :
    readoutT h woT bo = Cert.KernelIdeal.Region3.G h woT (shapeCast S1x1 bo hc) := by
  funext i
  obtain ⟨p, q, rfl⟩ : ∃ (p : Fin 100000) (q : Fin 1), i = ix2 p q := ⟨i 0, i 1, eq_ix2 i⟩
  unfold readoutT Cert.KernelIdeal.Region3.G
  rw [readoutG_apply]
  refine (hostDot_bias_apply dot_S100000x128_S128x1_S100000x1_1_0_0_1_n_n rfl h woT bo
    bcast_S1_S1x1_1 bcast_S1x1_S100000x1_0_1 p q).trans ?_
  exact lin_congr' (fun _ => rfl) (fun _ _ => rfl) (fun n => (shapeCast_row_apply bo hc n).symm) q

/-- The reference's aggregation along the edges: the same host term as the kernel program's. -/
def aggR (s d : IdxT) (h : FeatT) : FeatT :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

theorem aggR_eq (s d : IdxT) (h : FeatT) : aggR s d h = Cert.KernelIdeal.Net.aggS s d h := rfl

def rowR0 (e : EdgeT) : IdxT :=
  shapeCast S1600000 (extractStridedSlice S1x1600000 ![0, 0] e slices_S2x1600000_S1x1600000_0_0) shapeCasts_S1x1600000_S1600000

def rowR1 (e : EdgeT) : IdxT :=
  shapeCast S1600000 (extractStridedSlice S1x1600000 ![1, 0] e slices_S2x1600000_S1x1600000_1_0) shapeCasts_S1x1600000_S1600000

/-- One layer of the reference from the untransposed weights. -/
def layerR (e : EdgeT) (h : FeatT) (w : WeightT) (b : BiasT) (r : WeightT) : FeatT :=
  layerT (aggR (rowR0 e) (rowR1 e) h) h (transpose S128x128 [1, 0] w transposes_S128x128_S128x128_1_0) b
    (transpose S128x128 [1, 0] r transposes_S128x128_S128x128_1_0)

/-- The reference's readout from the untransposed weight row. -/
def readR (h : FeatT) (wo : OutWeightT) (bo : OutBiasT) : OutT :=
  readoutT h (transpose S128x1 [1, 0] wo transposes_S1x128_S128x1_1_0) bo

theorem layerR_eq (e : EdgeT) (h : FeatT) (w : WeightT) (b : BiasT) (r : WeightT) :
    layerR e h w b r = Cert.KernelIdeal.Net.layerK e h w b r := by
  unfold layerR Cert.KernelIdeal.Net.layerK
  refine (layerT_eq _ _ _ _ _ Cert.KernelIdeal.Facts₀.shapeCasts_S128_S1x128).trans ?_
  rfl

theorem readR_eq (h : FeatT) (wo : OutWeightT) (bo : OutBiasT) :
    readR h wo bo = Cert.KernelIdeal.Net.readK h wo bo := by
  unfold readR Cert.KernelIdeal.Net.readK
  refine (readoutT_eq _ _ _ Cert.KernelIdeal.Facts₀.shapeCasts_S1_S1x1).trans ?_
  rfl

/-- The run's composed term is three layers and the readout of the arguments. -/
theorem res_layers (m : (ℓ : Loc nD τ sig) → Buf (Elt Ideal) ℓ) (c : Dev nD) :
    res_main_v65 (F := Ideal) m c
      = readR (layerR (m ((c.tc : Thread nD τ).loc main_arg1)) (layerR (m ((c.tc : Thread nD τ).loc main_arg1)) (layerR (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)))
          (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10))) (m ((c.tc : Thread nD τ).loc main_arg11)) (m ((c.tc : Thread nD τ).loc main_arg12)) := by
  unfold res_main_v65
  rfl

/-- The reference's result is the network function of its arguments. -/
theorem res_eq (m : (ℓ : Loc nD τ sig) → Buf (Elt Ideal) ℓ) (c : Dev nD) :
    res_main_v65 (F := Ideal) m c
      = Cert.KernelIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [res_layers, readR_eq, layerR_eq, layerR_eq, layerR_eq]
  rfl

end Cert.RefSide

end
-- ==== Proof.lean ====
/-
  A three-layer graph convolution network with a linear readout: the tiled kernel program against the plain reference.

  Both programs compute, for node features x [100000, 128] and an edge list [2, 1600000], three times

      h ← max ( (agg h · w_relᵀ + b_rel) + h · w_rootᵀ , 0 ),      agg h (j) = ∑ over edges s → j of h (s),

  and return h · w_outᵀ + b_out. They aggregate by the same host operations (a gather of the source rows, a scatter-add
  onto the target rows). The kernel program computes each layer, and the readout, in a call that walks 20 blocks of 5000
  rows: a block of the result needs the same rows of the aggregated and of the node features and the small operands
  whole, the two products run over the same 128 terms as the reference's `dot_general`s (into a zero accumulator, which
  adds nothing on the extended reals), a change of float format is the identity there, and the three terms are added
  in the same order on both sides. So no algebraic law is needed and the precondition is never opened: entry by entry
  the two results are one expression.

  The modules: `LibGraphLayer` (a layer and the readout at an entry, in both spellings), `Region0` … `Region3` (each call's
  output array as the layer's whole-array function of the arrays the call finds), `KernelRun` (the kernel program's run
  with its result buffer named), `Net` (the network as one function of the thirteen arguments), `KernelFold` (the
  kernel program's result is that function), `RefSide` (so is the reference's). Here: the frames, `preserves` (the
  idealization rewrote nothing) and the equality of the two results.
-/
import proofs.«152363_j31954556683004_1_alg».proof.Defs
import proofs.«152363_j31954556683004_1_alg».proof.Proof.Gen.Kernel
import proofs.«152363_j31954556683004_1_alg».proof.Proof.Gen.Kernel.Frame
import proofs.«152363_j31954556683004_1_alg».proof.Proof.Gen.KernelIdeal
import proofs.«152363_j31954556683004_1_alg».proof.Proof.Gen.KernelIdeal.Frame
import proofs.«152363_j31954556683004_1_alg».proof.Proof.Gen.ReferenceIdeal
import proofs.«152363_j31954556683004_1_alg».proof.Proof.Gen.ReferenceIdeal.Run
import proofs.«152363_j31954556683004_1_alg».proof.Proof.Gen.Pre_finite_inputs
import proofs.«152363_j31954556683004_1_alg».proof.Proof.KernelRun
import proofs.«152363_j31954556683004_1_alg».proof.Proof.KernelFold
import proofs.«152363_j31954556683004_1_alg».proof.Proof.RefSide
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network function of the arguments in their
    result buffers. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.Fold.W8_v48 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    refine (Cert.RefSide.res_eq m' c).trans ?_
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
